-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49998 : Shape := ⟨2, ![4096, 49998]⟩
abbrev S50000x128 : Shape := ⟨2, ![50000, 128]⟩
abbrev S_ : Shape := ⟨0, ![]⟩

class Facts : Prop where
  bcast_S_S4096x49998 : S_.BroadcastsInDim S4096x49998 (![] : Fin 0 → Fin S4096x49998.rank)
  reducesTo_S4096x49998_S_d0_1 : S4096x49998.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_

variable [Facts]

def fn {F : FTy → Type} [FloatOps F] (main_arg0 : FVec F S4096x49998 .f32) (main_arg1 : FVec F S50000x128 .f32) : IVec S_ 1 :=
  let main_v0 : FVec F S4096x49998 .f32 := Host.absf main_arg0
  let main_cst : FVec F S_ .f32 := constant S_ .f32 0x7F800000#32
  let main_v1 : FVec F S4096x49998 .f32 := broadcastInDim S4096x49998 ![] bcast_S_S4096x49998 main_cst
  let main_v2 : IVec S4096x49998 1 := cmpf .olt main_v0 main_v1
  let main_c : IVec S_ 1 := constantI S_ 1 1#1
  let main_v3 : IVec S_ 1 := (fun x v => Host.reduce IntOp.andi x v reducesTo_S4096x49998_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  main_v8
-- ==== Kernel.lean ====
abbrev S4096x49998 : Shape := ⟨2, ![4096, 49998]⟩
abbrev S50000x128 : Shape := ⟨2, ![50000, 128]⟩
abbrev S49998x128 : Shape := ⟨2, ![49998, 128]⟩
abbrev S_ : Shape := ⟨0, ![]⟩
abbrev S4096x50176 : Shape := ⟨2, ![4096, 50176]⟩
abbrev S50176x128 : Shape := ⟨2, ![50176, 128]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 10
  | .vmem => 7
  | .smem => 0
  | _ => 0

abbrev bufTy : (tb : Table) → Fin (tcTables nBuf tb) → BufTy
  | .hbm, ⟨0, _⟩ => ⟨S4096x49998, .f32⟩
  | .hbm, ⟨1, _⟩ => ⟨S50000x128, .f32⟩
  | .hbm, ⟨2, _⟩ => ⟨S49998x128, .f32⟩
  | .hbm, ⟨3, _⟩ => ⟨S_, .i32⟩
  | .hbm, ⟨4, _⟩ => ⟨S_, .f32⟩
  | .hbm, ⟨5, _⟩ => ⟨S4096x50176, .f32⟩
  | .hbm, ⟨6, _⟩ => ⟨S_, .i32⟩
  | .hbm, ⟨7, _⟩ => ⟨S_, .f32⟩
  | .hbm, ⟨8, _⟩ => ⟨S50176x128, .f32⟩
  | .hbm, ⟨9, _⟩ => ⟨S4096x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4096x49998, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 49], ![false, false]⟩

def k0_cond2 (i : grid0.Coords) : BitVec 1 :=
  let arg1 : BitVec 32 := BitVec.ofNat 32 (i 1).val
  let c48_i32 : BitVec 32 := 48#32
  let v15 : BitVec 1 := Scalar.cmpi .eq arg1 c48_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S50000x128_S49998x128_0_0 : S50000x128.Slices ![0, 0] S49998x128
  pads_S4096x49998_S4096x50176_000_01780 : S4096x49998.Pads (![0, 0] : Fin 2 → Nat) ![0, 178] ![0, 0] S4096x50176
  h_S_ : 0 < S_.numel
  pads_S49998x128_S50176x128_01780_000 : S49998x128.Pads (![0, 0] : Fin 2 → Nat) ![178, 0] ![0, 0] S50176x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x50176.size a
  hwx0_0 : ∀ i : grid0.Coords, EltTy.bits .f32 = 32 ∨ (Rect.block (s := S4096x50176) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S50176x128.size a
  hwx0_1 : ∀ i : grid0.Coords, EltTy.bits .f32 = 32 ∨ (Rect.block (s := S50176x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x49998 : Shape := ⟨2, ![4096, 49998]⟩
abbrev S50000x128 : Shape := ⟨2, ![50000, 128]⟩
abbrev S49998x128 : Shape := ⟨2, ![49998, 128]⟩
abbrev S4096x128 : Shape := ⟨2, ![4096, 128]⟩

abbrev nBuf : Space → Nat
  | .hbm => 4
  | .vmem => 0
  | .smem => 0
  | _ => 0

abbrev bufTy : (tb : Table) → Fin (tcTables nBuf tb) → BufTy
  | .hbm, ⟨0, _⟩ => ⟨S4096x49998, .f32⟩
  | .hbm, ⟨1, _⟩ => ⟨S50000x128, .f32⟩
  | .hbm, ⟨2, _⟩ => ⟨S49998x128, .f32⟩
  | .hbm, ⟨3, _⟩ => ⟨S4096x128, .f32⟩
  | _, _ => ⟨S4096x49998, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  slices_S50000x128_S49998x128_0_0 : S50000x128.Slices ![0, 0] S49998x128
  dot_S4096x49998_S49998x128_S4096x128_1_0_0_1_n_n_wf : DotDims.WF S4096x49998 S49998x128 S4096x128 [1] [0] [0] [1] [] []

variable [Facts₀]

def dot_S4096x49998_S49998x128_S4096x128_1_0_0_1_n_n : DotDims S4096x49998 S49998x128 S4096x128 where
  lhsContracting := [1]
  rhsContracting := [0]
  lhsNonContracting := [0]
  rhsNonContracting := [1]
  lhsBatch := []
  rhsBatch := []
  wf := dot_S4096x49998_S49998x128_S4096x128_1_0_0_1_n_n_wf

class Facts : Prop extends Facts₀ where

variable [Facts]
-- ==== Proof.Pieces.lean ====
/-
  What the kernel body leaves behind at one grid point, as values.

  The body keeps a running block `acc` [1024, 128] in a scratch buffer. At a point it may first store the zero block
  (first k-step of a row block), then stores `step x0 x1 acc` = acc + x0 · x1 over what the scratch holds, and at the
  last k-step copies the scratch to the output block. Each buffer is overwritten whole, so what it holds afterwards
  is the last stored value, every load reading a whole buffer:
    * first k-step: the scratch ends at  step x0 x1 zero ;
    * any later k-step: the scratch ends at  step x0 x1 acc  (acc what the previous point left);
    * last k-step: also the output block ends at  step x0 x1 acc  (it is read back from the scratch).
  `step` is the body's second payload and `zero` its first, named in the generated skeleton. The statements hold at
  any float instance.
-/
import proofs.«176189_j5454608466258_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A middle k-step leaves `step x0 x1 acc` in the scratch: one covering store, its loads reading whole buffers. -/
theorem scratch_mid (c : Dev nD) (i : grid0.Coords) (a2 : Memref sig .tc .vmem S1024x1024 .f32) (h2 : a2.IsWhole)
    (a3 : Memref sig .tc .vmem S1024x128 .f32) (h3 : a3.IsWhole) (a4 : Memref sig .tc .vmem S1024x128 .f32) (h4 : a4.IsWhole)
    (a5 : Memref sig .tc .vmem S1024x128 .f32) (h5 : a5.IsWhole) (hc0 : ¬cond0_0 i) (hc1 : ¬cond0_1 i)
    (x0 : Vec F S1024x1024 .f32) (x1 : Vec F S1024x128 .f32) (acc : Vec F S1024x128 .f32) :
    sout0_B_0 c i a2 h2 a3 h3 a4 h4 a5 h5 hc0 hc1 x0 x1 acc = k0_pay2 x0 x1 acc := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero hz]
  simp only [View.readAt_eq_ld, h2.read_unread, h3.read_unread, h5.read_unread, View.ld_unit_zero (S := S1024x1024) hz,
    View.ld_unit_zero (S := S1024x128) hz]

/-- The first k-step leaves `step x0 x1 zero` in the scratch: the zero block is stored, read back, and the step's
    result stored over it. -/
theorem scratch_first (c : Dev nD) (i : grid0.Coords) (a2 : Memref sig .tc .vmem S1024x1024 .f32) (h2 : a2.IsWhole)
    (a3 : Memref sig .tc .vmem S1024x128 .f32) (h3 : a3.IsWhole) (a4 : Memref sig .tc .vmem S1024x128 .f32) (h4 : a4.IsWhole)
    (a5 : Memref sig .tc .vmem S1024x128 .f32) (h5 : a5.IsWhole) (hc0 : cond0_0 i) (hc1 : ¬cond0_1 i)
    (x0 : Vec F S1024x1024 .f32) (x1 : Vec F S1024x128 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x128) hz, View.readCov_unit_zero (S := S1024x128) _ hz]
  simp only [View.readAt_eq_ld, h2.read_unread, h3.read_unread, h5.read_unread, View.ld_unit_zero (S := S1024x1024) hz,
    View.ld_unit_zero (S := S1024x128) hz]

/-- The last k-step leaves `step x0 x1 acc` in the scratch, -/
theorem scratch_last (c : Dev nD) (i : grid0.Coords) (a2 : Memref sig .tc .vmem S1024x1024 .f32) (h2 : a2.IsWhole)
    (a3 : Memref sig .tc .vmem S1024x128 .f32) (h3 : a3.IsWhole) (a4 : Memref sig .tc .vmem S1024x128 .f32) (h4 : a4.IsWhole)
    (a5 : Memref sig .tc .vmem S1024x128 .f32) (h5 : a5.IsWhole) (hc0 : ¬cond0_0 i) (hc1 : cond0_1 i)
    (x0 : Vec F S1024x1024 .f32) (x1 : Vec F S1024x128 .f32) (acc : Vec F S1024x128 .f32) :
    sout0_C_0 c i a2 h2 a3 h3 a4 h4 a5 h5 hc0 hc1 x0 x1 acc = k0_pay2 x0 x1 acc := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero hz]
  simp only [View.readAt_eq_ld, h2.read_unread, h3.read_unread, h5.read_unread, View.ld_unit_zero (S := S1024x1024) hz,
    View.ld_unit_zero (S := S1024x128) hz]

/-- and the same block in the output's staging buffer: the scratch read back after the step's store. -/
theorem out_last (c : Dev nD) (i : grid0.Coords) (a2 : Memref sig .tc .vmem S1024x1024 .f32) (h2 : a2.IsWhole)
    (a3 : Memref sig .tc .vmem S1024x128 .f32) (h3 : a3.IsWhole) (a4 : Memref sig .tc .vmem S1024x128 .f32) (h4 : a4.IsWhole)
    (a5 : Memref sig .tc .vmem S1024x128 .f32) (h5 : a5.IsWhole) (hc0 : ¬cond0_0 i) (hc1 : cond0_1 i)
    (x0 : Vec F S1024x1024 .f32) (x1 : Vec F S1024x128 .f32) (acc : Vec F S1024x128 .f32) :
    out0_C_2 c i a2 h2 a3 h3 a4 h4 a5 h5 hc0 hc1 x0 x1 acc = k0_pay2 x0 x1 acc := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero hz, View.readCov_unit_zero (S := S1024x128) _ hz]
  simp only [View.readAt_eq_ld, h2.read_unread, h3.read_unread, h5.read_unread, View.ld_unit_zero (S := S1024x1024) hz,
    View.ld_unit_zero (S := S1024x128) hz]

end Cert.KernelIdeal.Pieces

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.Payload.lean ====
/-
  The body's arithmetic at one entry, at the ideal values.

  The zero block is 0 everywhere, and one step adds to the running block the product of the two input blocks:
      step x0 x1 acc (r, e) = acc(r, e) + Σ_{j < 1024} x0(r, j) · x1(j, e).
  The casts to bf16 before the matrix unit are the identity on extended reals, the shape casts are between equal
  shapes, and the matrix product starts from the all-zero accumulator.
-/
import proofs.«176189_j5454608466258_1_alg».proof.Proof.Gen.KernelIdeal.Skeleton
import proofs.«176189_j5454608466258_1_alg».proof.Proof.LibMatmulZero
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The zero block is zero at every entry. -/
theorem zero_apply (r : Fin 1024) (e : Fin 128) : k0_pay1 (F := Ideal) (ix2 r e) = 0 := by
  unfold k0_pay1
  simp only [shapeCast_self]
  exact Ideal.ofBits_zero_f32

/-- One step at an entry: the running value plus the row of `x0` against the column of `x1`. -/
theorem step_apply (x0 : Vec Ideal S1024x1024 .f32) (x1 acc : Vec Ideal S1024x128 .f32) (r : Fin 1024) (e : Fin 128) :
    k0_pay2 x0 x1 acc (ix2 r e) = acc (ix2 r e) + ∑ j : Fin 1024, x0 (ix2 r j) * x1 (ix2 j e) := by
  unfold k0_pay2
  simp only [shapeCast_self]
  refine congrArg (acc (ix2 r e) + ·) ?_
  exact Cert.LibMatmulZero.matmul_zero_ix2 dot_S1024x1024_S1024x128_S1024x128_1_0_0_1_n_n rfl rfl rfl rfl
    (fun i c => by
      unfold DotDims.lhsIdx
      rw [dif_neg (show ¬(0 : Fin _) ∈ dot_S1024x1024_S1024x128_S1024x128_1_0_0_1_n_n.lhsBatch by decide),
        dif_pos (show (0 : Fin _) ∈ dot_S1024x1024_S1024x128_S1024x128_1_0_0_1_n_n.lhsNonContracting by decide)]
      rfl)
    (fun i c => by
      unfold DotDims.rhsIdx
      rw [dif_neg (show ¬(1 : Fin _) ∈ dot_S1024x1024_S1024x128_S1024x128_1_0_0_1_n_n.rhsBatch by decide),
        dif_pos (show (1 : Fin _) ∈ dot_S1024x1024_S1024x128_S1024x128_1_0_0_1_n_n.rhsNonContracting by decide)]
      rfl)
    none _ _ r e

end Cert.KernelIdeal.Payload

end
-- ==== Proof.Spec.lean ====
/-
  The specification: the embedding product as one function of the two argument arrays.

  The arguments are x : [4096, 49998] and w : [50000, 128]; only the first 49998 rows of w are used. The result is
      G x w (b, e) = Σ_{n < 49998} x(b, n) · w(n, e)
  over the extended reals. The kernel reaches it through running totals over the positions 0 … K-1 of the contracted
  axis, K a multiple of 1024 up to 50176 = 49 · 1024, where a position n ≥ 49998 (zero padding on both operands)
  contributes 0 · 0 = 0: `term` is the n-th summand with that convention, `partialSum … K` the total of the first K
  of them. Addition of extended reals is commutative and associative, so splitting the range of a sum needs no
  finiteness of the entries.
-/
import Idealize.ShloMosaic.PureOps.Ideal
import Idealize.ShloMosaic.Lib.ValueIdx

noncomputable section

namespace Cert.Embed

open Idealize.ShloMosaic Idealize.ShloMosaic.ValueIdx

/-- The left argument's shape. -/
abbrev SX : Shape := ⟨2, ![4096, 49998]⟩
/-- The right argument's shape (the table with its two unused last rows). -/
abbrev SW : Shape := ⟨2, ![50000, 128]⟩
/-- The result's shape. -/
abbrev SO : Shape := ⟨2, ![4096, 128]⟩

variable (x : SX.Idx → EReal) (w : SW.Idx → EReal)

/-- Summand `n` of entry (b, e): `x(b, n) · w(n, e)` for a position inside the contracted axis, `0` past it. -/
def term (b : Fin 4096) (e : Fin 128) (n : ℕ) : EReal :=
  if h : n < 49998 then x (ix2 b (⟨n, h⟩ : Fin 49998)) * w (ix2 (⟨n, by omega⟩ : Fin 50000) e) else 0

/-- The total of the first `K` summands of entry (b, e). -/
def partialSum (b : Fin 4096) (e : Fin 128) (K : ℕ) : EReal := ∑ n ∈ Finset.range K, term x w b e n

/-- The product: entry (b, e) is the sum over the 49998 used positions. -/
def G : SO.Idx → EReal := fun i =>
  ∑ k : Fin 49998, x (ix2 (i 0) k) * w (ix2 (⟨k.val, by have := k.isLt; omega⟩ : Fin 50000) (i 1))

theorem partialSum_zero (b : Fin 4096) (e : Fin 128) : partialSum x w b e 0 = 0 := by
  unfold partialSum; rw [Finset.range_zero, Finset.sum_empty]

/-- The total of the first `K + L` summands is that of the first `K` plus the next `L`. -/
theorem partialSum_add (b : Fin 4096) (e : Fin 128) (K L : ℕ) :
    partialSum x w b e (K + L) = partialSum x w b e K + ∑ j : Fin L, term x w b e (K + j.val) := by
  unfold partialSum
  rw [Finset.sum_range_add]
  exact congrArg _ (Finset.sum_range fun n => term x w b e (K + n))

/-- A summand past the contracted axis is zero. -/
theorem term_of_ge (b : Fin 4096) (e : Fin 128) (n : ℕ) (h : 49998 ≤ n) : term x w b e n = 0 := by
  unfold term; rw [dif_neg (by omega)]

/-- All 50176 summands (the padded extent) total the product's entry. -/
theorem partialSum_full (b : Fin 4096) (e : Fin 128) : partialSum x w b e 50176 = G x w (ix2 b e) := by
  have h : (50176 : ℕ) = 49998 + 178 := by norm_num
  rw [h, partialSum_add]
  have hz : ∑ j : Fin 178, term x w b e (49998 + j.val) = 0 :=
    Finset.sum_eq_zero fun j _ => term_of_ge x w b e _ (by omega)
  rw [hz, add_zero]
  unfold partialSum G
  rw [Finset.sum_range]
  refine Finset.sum_congr rfl fun k _ => ?_
  unfold term
  rw [dif_pos k.isLt]

end Cert.Embed

end
-- ==== Proof.Operands.lean ====
/-
  The two arrays the kernel's region reads, and their blocks.

  Before the region the host pads both operands with zeros along the contracted axis, from 49998 to 50176 = 49 · 1024
  positions: the left operand x [4096, 49998] on its columns, and the first 49998 rows of the table w [50000, 128]
  on their rows. The padding value is the integer 0 converted to a float, the real 0. So, at the ideal values,
      xp(b, n) = x(b, n)  for n < 49998,  0 otherwise;      wp(n, e) = w(n, e)  for n < 49998,  0 otherwise,
  and xp(b, n) · wp(n, e) is the n-th summand of the product's entry (b, e), with 0 · 0 = 0 past the axis.

  Grid point t = 49 · i + k fetches rows 1024 i … of xp against columns 1024 k …, and rows 1024 k … of wp: a block's
  entry (r, j) is the array's entry (1024 · index + r, …).
-/
import proofs.«176189_j5454608466258_1_alg».proof.Proof.Spec
import proofs.«176189_j5454608466258_1_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Operands

open Cert.KernelIdeal Cert.KernelIdeal.Gen Cert.Embed

/-! ## The padded arrays as the region finds them -/

section AnyFloat
variable {F : FTy → Type} [FloatOps F]
variable (m : (ℓ : Loc nD τ sig) → Buf (Elt F) ℓ)

/-- The region's left array is the left argument padded on its columns. -/
theorem V_left (c : Dev nD) : (V m c main_v1 : S4096x50176.Idx → Elt F .f32)
    = pad S4096x50176 ![0, 0] ![0, 178] ![0, 0] (m ((c : Thread nD τ).loc main_arg0))
        (sitofp (F := F) .f32 (constantI S_ 32 0#32)) pads_S4096x49998_S4096x50176_000_01780 h_S_ := by
  dsimp only [Gen.V]
  simp only [Gen.hostOps0, Gen.hostOps0_1, Gen.hostOps0_2, Gen.hostOps0_3, List.flatten_cons, List.flatten_nil, List.append_nil,
    List.cons_append, List.nil_append]
  after_results
  rfl

/-- The region's right array is the table's first 49998 rows padded with further rows. -/
theorem V_right (c : Dev nD) : (V m c main_v2 : S50176x128.Idx → Elt F .f32)
    = pad S50176x128 ![0, 0] ![178, 0] ![0, 0]
        (extractStridedSlice S49998x128 ![0, 0] (m ((c : Thread nD τ).loc main_arg1)) slices_S50000x128_S49998x128_0_0)
        (sitofp (F := F) .f32 (constantI S_ 32 0#32)) pads_S49998x128_S50176x128_01780_000 h_S_ := by
  dsimp only [Gen.V]
  simp only [Gen.hostOps0, Gen.hostOps0_1, Gen.hostOps0_2, Gen.hostOps0_3, List.flatten_cons, List.flatten_nil, List.append_nil,
    List.cons_append, List.nil_append]
  after_results
  rfl

/-! ## The blocks -/

/-- The windows' block indices at point `t`: (t / 49, t % 49) for the left operand, (t % 49, 0) for the right,
    (t / 49, 0) for the result — decided over the 196 points. -/
theorem idx_facts : ∀ t : Fin cfg0.N, win0_0.index t (0 : Fin 2) = t.val / 49 ∧ win0_0.index t (1 : Fin 2) = t.val % 49
    ∧ win0_1.index t (0 : Fin 2) = t.val % 49 ∧ win0_1.index t (1 : Fin 2) = 0
    ∧ win0_2.index t (0 : Fin 2) = t.val / 49 ∧ win0_2.index t (1 : Fin 2) = 0 :=
  (by decide +kernel : ∀ t : Fin grid0.N, _)

/-- Entry (r, j) of the left block at point `t` is entry (1024 (t / 49) + r, 1024 (t % 49) + j) of the padded left array. -/
theorem left_block (c : Dev nD) (t : Fin cfg0.N) (r j : Fin 1024) (B : Fin 4096) (n : ℕ) (hlt : n < 50176)
    (hB : B.val = 1024 * (t.val / 49) + r.val) (hn : n = 1024 * (t.val % 49) + j.val) :
    (iblk m c 0 t : Vec F S1024x1024 .f32) (ix2 r j)
      = (V m c main_v1 : S4096x50176.Idx → Elt F .f32) (ix2 B (⟨n, hlt⟩ : Fin 50176)) := by
  obtain ⟨e0, e1, -⟩ := idx_facts t
  unfold iblk
  rw [View.read_apply]
  show V m c main_v1 _ = V m c main_v1 _
  congr 1
  funext a
  apply Fin.ext
  match a with
  | ⟨0, _⟩ => show win0_0.index t (0 : Fin 2) * 1024 + 1 * r.val = B.val; rw [e0]; omega
  | ⟨1, _⟩ => show win0_0.index t (1 : Fin 2) * 1024 + 1 * j.val = n; rw [e1]; omega

/-- Entry (j, e) of the right block at point `t` is entry (1024 (t % 49) + j, e) of the padded right array. -/
theorem right_block (c : Dev nD) (t : Fin cfg0.N) (j : Fin 1024) (e : Fin 128) (n : ℕ) (hlt : n < 50176)
    (hn : n = 1024 * (t.val % 49) + j.val) :
    (iblk m c 1 t : Vec F S1024x128 .f32) (ix2 j e)
      = (V m c main_v2 : S50176x128.Idx → Elt F .f32) (ix2 (⟨n, hlt⟩ : Fin 50176) e) := by
  obtain ⟨-, -, e0, e1, -⟩ := idx_facts t
  unfold iblk
  rw [View.read_apply]
  show V m c main_v2 _ = V m c main_v2 _
  congr 1
  funext a
  apply Fin.ext
  match a with
  | ⟨0, _⟩ => show win0_1.index t (0 : Fin 2) * 1024 + 1 * j.val = n; rw [e0]; omega
  | ⟨1, _⟩ => show win0_1.index t (1 : Fin 2) * 128 + 1 * e.val = e.val; rw [e1]; omega

end AnyFloat

/-! ## The padded arrays at an entry, at the ideal values -/

/-- The padding value: the integer zero converted, the real zero. -/
theorem padval : (sitofp (F := Ideal) .f32 (constantI S_ 32 0#32)) (Shape.Idx.first h_S_) = (0 : EReal) := by
  show (((0#32 : BitVec 32).toInt : ℝ) : EReal) = 0
  simp

/-- The padded left array: the argument inside its 49998 columns, zero in the 178 added ones. -/
theorem left_apply (x : S4096x49998.Idx → EReal) (b : Fin 4096) (n : ℕ) (hlt : n < 50176) :
    pad S4096x50176 ![0, 0] ![0, 178] ![0, 0] x (sitofp (F := Ideal) .f32 (constantI S_ 32 0#32))
        pads_S4096x49998_S4096x50176_000_01780 h_S_ (ix2 b (⟨n, hlt⟩ : Fin 50176))
      = if h : n < 49998 then x (ix2 b (⟨n, h⟩ : Fin 49998)) else 0 := by
  by_cases h : n < 49998
  · rw [dif_pos h]
    exact pad_apply_of_inside _ _ _ x _ pads_S4096x49998_S4096x50176_000_01780 h_S_ (ix2 b (⟨n, hlt⟩ : Fin 50176))
      (ix2 b (⟨n, h⟩ : Fin 49998))
      (fun a => match a with
        | ⟨0, _⟩ => by show b.val = 0 + b.val * (0 + 1); omega
        | ⟨1, _⟩ => by show n = 0 + n * (0 + 1); omega)
  · rw [dif_neg h]
    refine (pad_apply_of_not_inside _ _ _ x _ pads_S4096x49998_S4096x50176_000_01780 h_S_ (ix2 b (⟨n, hlt⟩ : Fin 50176)) 1 ?_).trans padval
    show ¬(0 ≤ n ∧ (n - 0) % (0 + 1) = 0 ∧ (n - 0) / (0 + 1) < 49998)
    omega

/-- The padded right array: the table inside its first 49998 rows, zero in the 178 added ones. -/
theorem right_apply (w : S50000x128.Idx → EReal) (n : ℕ) (hlt : n < 50176) (e : Fin 128) :
    pad S50176x128 ![0, 0] ![178, 0] ![0, 0]
        (extractStridedSlice S49998x128 ![0, 0] w slices_S50000x128_S49998x128_0_0)
        (sitofp (F := Ideal) .f32 (constantI S_ 32 0#32)) pads_S49998x128_S50176x128_01780_000 h_S_ (ix2 (⟨n, hlt⟩ : Fin 50176) e)
      = if h : n < 49998 then w (ix2 (⟨n, by omega⟩ : Fin 50000) e) else 0 := by
  by_cases h : n < 49998
  · rw [dif_pos h]
    refine (pad_apply_of_inside _ _ _ _ _ pads_S49998x128_S50176x128_01780_000 h_S_ (ix2 (⟨n, hlt⟩ : Fin 50176) e)
      (ix2 (⟨n, h⟩ : Fin 49998) e)
      (fun a => match a with
        | ⟨0, _⟩ => by show n = 0 + n * (0 + 1); omega
        | ⟨1, _⟩ => by show e.val = 0 + e.val * (0 + 1); omega)).trans ?_
    exact extractStridedSlice_apply ![0, 0] w slices_S50000x128_S49998x128_0_0 (ix2 (⟨n, h⟩ : Fin 49998) e)
      (ix2 (⟨n, by omega⟩ : Fin 50000) e) (fun a => match a with
        | ⟨0, _⟩ => by show n = 0 + n; omega
        | ⟨1, _⟩ => by show e.val = 0 + e.val; omega)
  · rw [dif_neg h]
    refine (pad_apply_of_not_inside _ _ _ _ _ pads_S49998x128_S50176x128_01780_000 h_S_ (ix2 (⟨n, hlt⟩ : Fin 50176) e) 0 ?_).trans padval
    show ¬(0 ≤ n ∧ (n - 0) % (0 + 1) = 0 ∧ (n - 0) / (0 + 1) < 49998)
    omega

/-! ## A block product is a summand of the specification -/

/-- The left operand's block at point `t`, as a 1024 × 1024 matrix of extended reals. -/
abbrev xblk (m : (ℓ : Loc nD τ sig) → Buf (Elt Ideal) ℓ) (c : Dev nD) (t : Fin cfg0.N) : Vec Ideal S1024x1024 .f32 := iblk m c 0 t
/-- The right operand's block at point `t`, as a 1024 × 128 matrix of extended reals. -/
abbrev wblk (m : (ℓ : Loc nD τ sig) → Buf (Elt Ideal) ℓ) (c : Dev nD) (t : Fin cfg0.N) : Vec Ideal S1024x128 .f32 := iblk m c 1 t

/-- At point `t`, the left block's entry (r, j) times the right block's entry (j, e) is summand 1024 (t % 49) + j of
    the product's entry (1024 (t / 49) + r, e) — zero times zero past the contracted axis. -/
theorem block_product (m : (ℓ : Loc nD τ sig) → Buf (Elt Ideal) ℓ) (c : Dev nD) (t : Fin cfg0.N) (r j : Fin 1024)
    (e : Fin 128) (B : Fin 4096) (hB : B.val = 1024 * (t.val / 49) + r.val) :
    xblk m c t (ix2 r j) * wblk m c t (ix2 j e)
      = term (m ((c : Thread nD τ).loc main_arg0)) (m ((c : Thread nD τ).loc main_arg1)) B e (1024 * (t.val % 49) + j.val) := by
  have hN : t.val < 196 := lt_of_lt_of_eq t.isLt N_0
  have hlt : 1024 * (t.val % 49) + j.val < 50176 := by have := j.isLt; omega
  have hl : xblk m c t (ix2 r j) = _ := left_block m c t r j B _ hlt hB rfl
  have hr : wblk m c t (ix2 j e) = _ := right_block m c t j e _ hlt rfl
  rw [hl, hr, V_left, V_right, left_apply, right_apply]
  unfold term
  by_cases h : 1024 * (t.val % 49) + j.val < 49998
  · rw [dif_pos h, dif_pos h, dif_pos h]
  · rw [dif_neg h, dif_neg h, dif_neg h, mul_zero]

end Cert.KernelIdeal.Operands

end
-- ==== Proof.Accum.lean ====
/-
  The running block, point by point.

  With x, w the two arguments, after grid point n = 49 i + k the scratch holds, at entry (r, e), the total of the
  first 1024 (k + 1) summands of the product's entry (1024 i + r, e):
      scratch_n (r, e) = Σ_{p < 1024 k + 1024} term x w (1024 i + r) e p.
  By induction on the point. At k = 0 the scratch is the zero block plus the first 1024 summands. At k > 0 it is what
  point n - 1 = 49 i + (k - 1) left — the first 1024 k summands of the same entry — plus the block product at k, which
  is the next 1024 summands. A range of summands splits as a sum of two ranges in any commutative monoid, so nothing
  here asks the entries to be finite.
-/
import proofs.«176189_j5454608466258_1_alg».proof.Proof.Pieces
import proofs.«176189_j5454608466258_1_alg».proof.Proof.Payload
import proofs.«176189_j5454608466258_1_alg».proof.Proof.Operands

noncomputable section

open Idealize.ShloMosaic Idealize.ShloMosaic.TcCoe Idealize.SL.Sem Idealize.ShloMosaic.ValueIdx

namespace Cert.KernelIdeal.Accum

open Cert.KernelIdeal Cert.KernelIdeal.Gen Cert.Embed Cert.KernelIdeal.Operands

variable (m : (ℓ : Loc nD τ sig) → Buf (Elt Ideal) ℓ)

/-- The left argument as launched. -/
abbrev argX (c : Dev nD) : SX.Idx → EReal := m ((c : Thread nD τ).loc main_arg0)
/-- The right argument (the whole table) as launched. -/
abbrev argW (c : Dev nD) : SW.Idx → EReal := m ((c : Thread nD τ).loc main_arg1)

/-- One step over the blocks of point `t` adds summands 1024 (t % 49) … 1024 (t % 49) + 1023 of the entry's row. -/
theorem step_total (c : Dev nD) (t : Fin cfg0.N) (acc : Vec Ideal S1024x128 .f32) (r : Fin 1024) (e : Fin 128) (B : Fin 4096)
    (hB : B.val = 1024 * (t.val / 49) + r.val) :
    k0_pay2 (xblk m c t) (wblk m c t) acc (ix2 r e)
      = acc (ix2 r e) + ∑ j : Fin 1024, term (argX m c) (argW m c) B e (1024 * (t.val % 49) + j.val) := by
  refine (Payload.step_apply (xblk m c t) (wblk m c t) acc r e).trans ?_
  exact congrArg (acc (ix2 r e) + ·) (Finset.sum_congr rfl fun j _ => block_product m c t r j e B hB)

/-- A first k-step: from the zero block, the first 1024 summands. -/
theorem first_total (c : Dev nD) (t : Fin cfg0.N) (h0 : t.val % 49 = 0) (r : Fin 1024) (e : Fin 128) (B : Fin 4096)
    (hB : B.val = 1024 * (t.val / 49) + r.val) :
    (outsAt0 m c t.val t.isLt).2 (ix2 r e) = partialSum (argX m c) (argW m c) B e (1024 * (t.val % 49) + 1024) := by
  have h1 : ¬t.val % 49 = 48 := by omega
  rw [outsAt0_A m c t h0 h1]
  dsimp only
  refine (congrFun (Pieces.scratch_first (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)) (ix2 r e)).trans ?_
  refine (step_total m c t (k0_pay1 (F := Ideal)) r e B hB).trans ?_
  rw [Payload.zero_apply, zero_add, h0, partialSum_add, partialSum_zero, zero_add]

/-- A later k-step: what the point before left (the first 1024 k summands) plus the next 1024. -/
theorem carry_total (c : Dev nD) (t : Fin cfg0.N) (h0 : ¬t.val % 49 = 0) (hp : t.val - 1 < cfg0.N)
    (hprev : ∀ (r : Fin 1024) (e : Fin 128) (B : Fin 4096), B.val = 1024 * ((t.val - 1) / 49) + r.val →
      (outsAt0 m c (t.val - 1) hp).2 (ix2 r e) = partialSum (argX m c) (argW m c) B e (1024 * ((t.val - 1) % 49) + 1024))
    (r : Fin 1024) (e : Fin 128) (B : Fin 4096) (hB : B.val = 1024 * (t.val / 49) + r.val) :
    k0_pay2 (xblk m c t) (wblk m c t) (outsAt0 m c (t.val - 1) hp).2 (ix2 r e)
      = partialSum (argX m c) (argW m c) B e (1024 * (t.val % 49) + 1024) := by
  refine (step_total m c t _ r e B hB).trans ?_
  rw [hprev r e B (by omega), show 1024 * ((t.val - 1) % 49) + 1024 = 1024 * (t.val % 49) from by omega]
  exact (partialSum_add _ _ B e _ 1024).symm

/-- THE RUNNING TOTAL: after point `n` the scratch's entry (r, e) is the total of the first 1024 (n % 49) + 1024
    summands of the product's entry (1024 (n / 49) + r, e). -/
theorem total_after (c : Dev nD) : ∀ (n : ℕ) (hn : n < cfg0.N) (r : Fin 1024) (e : Fin 128) (B : Fin 4096),
    B.val = 1024 * (n / 49) + r.val →
    (outsAt0 m c n hn).2 (ix2 r e) = partialSum (argX m c) (argW m c) B e (1024 * (n % 49) + 1024)
  | 0, hn, r, e, B, hB => first_total m c ⟨0, hn⟩ rfl r e B hB
  | n + 1, hn, r, e, B, hB => by
    by_cases h0 : (n + 1) % 49 = 0
    · exact first_total m c ⟨n + 1, hn⟩ h0 r e B hB
    · have hp : n < cfg0.N := Nat.lt_of_succ_lt hn
      have key := carry_total m c ⟨n + 1, hn⟩ h0 hp (fun r e B hB => total_after c n hp r e B hB) r e B hB
      by_cases h1 : (n + 1) % 49 = 48
      · rw [outsAt0_C m c ⟨n + 1, hn⟩ h0 h1]
        dsimp only
        exact (congrFun (Pieces.scratch_last (F := Ideal) c (grid0.coords ⟨n + 1, hn⟩) (ms0_0 ⟨n + 1, hn⟩) (hs0_0 ⟨n + 1, hn⟩)
          (ms0_1 ⟨n + 1, hn⟩) (hs0_1 ⟨n + 1, hn⟩) (ms0_2 ⟨n + 1, hn⟩) (hs0_2 ⟨n + 1, hn⟩) scM0_0 (Memref.isWhole_whole _)
          (fun h => h0 ((hcond0_0 ⟨n + 1, hn⟩).mp h)) ((hcond0_1 ⟨n + 1, hn⟩).mpr h1) (iblk m c 0 ⟨n + 1, hn⟩) (iblk m c 1 ⟨n + 1, hn⟩)
          (outsAt0 m c n hp).2) (ix2 r e)).trans key
      · rw [outsAt0_B m c ⟨n + 1, hn⟩ h0 h1]
        dsimp only
        exact (congrFun (Pieces.scratch_mid (F := Ideal) c (grid0.coords ⟨n + 1, hn⟩) (ms0_0 ⟨n + 1, hn⟩) (hs0_0 ⟨n + 1, hn⟩)
          (ms0_1 ⟨n + 1, hn⟩) (hs0_1 ⟨n + 1, hn⟩) (ms0_2 ⟨n + 1, hn⟩) (hs0_2 ⟨n + 1, hn⟩) scM0_0 (Memref.isWhole_whole _)
          (fun h => h0 ((hcond0_0 ⟨n + 1, hn⟩).mp h)) (fun h => h1 ((hcond0_1 ⟨n + 1, hn⟩).mp h)) (iblk m c 0 ⟨n + 1, hn⟩) (iblk m c 1 ⟨n + 1, hn⟩)
          (outsAt0 m c n hp).2) (ix2 r e)).trans key

end Cert.KernelIdeal.Accum

end
-- ==== Proof.Result.lean ====
/-
  From the blocks to the result array.

  The result's block of row block i is written back once, after the last k-step of that row block (point 49 i + 48).
  There the output's staging buffer holds the running block after all 49 steps: at entry (r, e) the total of all
  1024 · 49 = 50176 summands, which is the product's entry (1024 i + r, e) — the padded positions add zeros. The four
  written blocks tile the [4096, 128] result (row b lies in row block b / 1024), so the array ends holding the product
  `G x w` everywhere.
-/
import proofs.«176189_j5454608466258_1_alg».proof.Proof.Accum
import proofs.«176189_j5454608466258_1_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Embed Cert.KernelIdeal.Operands Cert.KernelIdeal.Accum

variable (m : (ℓ : Loc nD τ sig) → Buf (Elt Ideal) ℓ) (ρ : Dev nD → PrngReg)

/-- What the result array ends holding: the product of the arguments as launched. -/
abbrev result (c : Dev nD) : Buf (Elt Ideal) ((c : Thread nD τ).loc main_v3) := G (argX m c) (argW m c)

/-- At the last k-step of a row block the output's staging buffer holds, at entry (r, e), the product's entry
    (1024 (t / 49) + r, e): the running total of all 50176 summands. -/
theorem out_entry (c : Dev nD) (t : Fin cfg0.N) (h0 : ¬t.val % 49 = 0) (h1 : t.val % 49 = 48) (hp : t.val - 1 < cfg0.N)
    (r : Fin 1024) (e : Fin 128) (B : Fin 4096) (hB : B.val = 1024 * (t.val / 49) + r.val) :
    out0_C_2 c (grid0.coords t) (ms0_0 t) (hs0_0 t) (ms0_1 t) (hs0_1 t) (ms0_2 t) (hs0_2 t) scM0_0 (Memref.isWhole_whole _)
        (fun h => h0 ((hcond0_0 t).mp h)) ((hcond0_1 t).mpr h1) (iblk m c 0 t) (iblk m c 1 t) (outsAt0 m c (t.val - 1) hp).2 (ix2 r e)
      = G (argX m c) (argW m c) (ix2 B e) := by
  refine (congrFun (Pieces.out_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) hp).2) (ix2 r e)).trans ?_
  refine (carry_total m c t h0 hp (fun r e B hB => total_after m c (t.val - 1) hp r e B hB) r e B hB).trans ?_
  rw [h1]
  exact partialSum_full _ _ B e

/-- A write-back of an uncut block reads the staging contents at the block's own index. -/
theorem cut_apply (t : Fin cfg0.N) (X : Vec Ideal S1024x128 .f32) (y : ((cfg0.win 2).xblock (grid0.coords t)).Idx) :
    (cfg0.win 2).cut (grid0.coords t) X y = X (win0_2.xinj (grid0.coords t) y) := rfl

/-- That index, by coordinates. -/
theorem xinj_eq (t : Fin cfg0.N) (y : ((cfg0.win 2).xblock (grid0.coords t)).Idx) (hy0 : (y 0).val < 1024) (hy1 : (y 1).val < 128) :
    win0_2.xinj (grid0.coords t) y = ix2 (⟨(y 0).val, hy0⟩ : Fin 1024) (⟨(y 1).val, hy1⟩ : Fin 128) :=
  funext fun a => Fin.ext (by
    match a with
    | ⟨0, _⟩ => rfl
    | ⟨1, _⟩ => rfl)

/-- Reading an array through point `t`'s block of the result reads the array at the block's entry. -/
theorem read_blk (t : Fin cfg0.N) (A : S4096x128.Idx → EReal) (y : ((cfg0.win 2).xblock (grid0.coords t)).Idx) :
    ((cfg0.win 2).blk t).view.read (Elt Ideal) A y = A (((cfg0.win 2).blk t).view.emb y) := rfl

/-- What a writing point writes back is its block of the product. -/
theorem flushed_eq (c : Dev nD) (t : Fin cfg0.N) (hf : (cfg0.win 2).flush t = true) :
    (dats m 0 c).flushed 2 t = ((cfg0.win 2).blk t).view.read (Elt Ideal) (result m c) := by
  have hN : t.val < 196 := lt_of_lt_of_eq t.isLt N_0
  have h1 : t.val % 49 = 48 := (flush0_2 t).mp hf
  have h0 : ¬t.val % 49 = 0 := by omega
  have hp : t.val - 1 < cfg0.N := Nat.lt_of_le_of_lt (Nat.sub_le _ _) t.isLt
  obtain ⟨-, -, -, -, e0, e1⟩ := idx_facts t
  rw [Value.flushed2_C m c t h0 h1]
  funext y
  have hy0 : (y 0).val < 1024 := (y 0).isLt
  have hy1 : (y 1).val < 128 := (y 1).isLt
  have he : ((cfg0.win 2).blk t).view.emb y
      = ix2 (⟨1024 * (t.val / 49) + (y 0).val, by omega⟩ : Fin 4096) (⟨(y 1).val, hy1⟩ : Fin 128) :=
    funext fun a => Fin.ext (by
      match a with
      | ⟨0, _⟩ => show win0_2.index t (0 : Fin 2) * 1024 + 1 * (y 0).val = 1024 * (t.val / 49) + (y 0).val; rw [e0]; omega
      | ⟨1, _⟩ => show win0_2.index t (1 : Fin 2) * 128 + 1 * (y 1).val = (y 1).val; rw [e1]; omega)
  rw [read_blk t (result m c) y, cut_apply, xinj_eq t y hy0 hy1, he]
  exact out_entry m c t h0 h1 hp (⟨(y 0).val, hy0⟩ : Fin 1024) (⟨(y 1).val, hy1⟩ : Fin 128)
    (⟨1024 * (t.val / 49) + (y 0).val, by omega⟩ : Fin 4096) rfl

/-- An index of the result lies in point `t`'s block iff each coordinate is in the block's range on its axis. -/
theorem mem_blk (t : Fin cfg0.N) (i : S4096x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v3).slice (win0_2.rect t)).set ↔ _
  rw [View.set_slice_whole, Rect.mem_set_unit]
  exact Iff.rfl

/-- Every entry of the result is in some written block: row b in the block written at point 49 (b / 1024) + 48. -/
theorem cover (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 196 := N_0
  have hlt : 49 * ((i 0).val / 1024) + 48 < cfg0.N := by rw [hN]; omega
  obtain ⟨-, -, -, -, e0, e1⟩ := idx_facts ⟨49 * ((i 0).val / 1024) + 48, hlt⟩
  refine ⟨⟨49 * ((i 0).val / 1024) + 48, hlt⟩, (flush0_2 _).mpr (by show (49 * ((i 0).val / 1024) + 48) % 49 = 48; omega), ?_⟩
  rw [mem_blk]
  intro a
  match a with
  | ⟨0, _⟩ =>
    show win0_2.index ⟨49 * ((i 0).val / 1024) + 48, hlt⟩ (0 : Fin 2) * 1024 ≤ (i 0).val
      ∧ (i 0).val < win0_2.index ⟨49 * ((i 0).val / 1024) + 48, hlt⟩ (0 : Fin 2) * 1024 + 1024
    rw [e0]
    show (49 * ((i 0).val / 1024) + 48) / 49 * 1024 ≤ (i 0).val ∧ (i 0).val < (49 * ((i 0).val / 1024) + 48) / 49 * 1024 + 1024
    omega
  | ⟨1, _⟩ =>
    show win0_2.index ⟨49 * ((i 0).val / 1024) + 48, hlt⟩ (1 : Fin 2) * 128 ≤ (i 1).val
      ∧ (i 1).val < win0_2.index ⟨49 * ((i 0).val / 1024) + 48, hlt⟩ (1 : Fin 2) * 128 + 128
    rw [e1]
    omega

/-- The result array after the run is the product. -/
theorem final (c : Dev nD) : (dats m 0 c).arrAt 2 cfg0.N = result m c :=
  (dats m 0 c).arrAt_eq_of_cover 2 (result m c) (flushed_eq m c) cover

/-- The kernel's run, read: the result array at the product of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.Reference.lean ====
/-
  The reference computes the same product.

  The reference slices the table to its first 49998 rows and takes one matrix product; at the ideal values its
  entry (b, e) is Σ_{k < 49998} x(b, k) · w(k, e) with the slice read back as the table's own rows — the
  specification's `G x w`, term for term.
-/
import proofs.«176189_j5454608466258_1_alg».proof.Proof.Spec
import proofs.«176189_j5454608466258_1_alg».proof.Proof.Gen.ReferenceIdeal.Read

noncomputable section

open Idealize.ShloMosaic Idealize.ShloMosaic.ValueIdx

namespace Cert.ReferenceIdeal.Product

open Cert.ReferenceIdeal Cert.ReferenceIdeal.Read Cert.Embed

/-- The reference's result is the product, entry by entry. -/
theorem ref_eq (x : (⟨S4096x49998, .f32⟩ : BufTy).Contents (Elt Ideal)) (w : (⟨S50000x128, .f32⟩ : BufTy).Contents (Elt Ideal)) :
    val_main_v1 (F := Ideal) x w = G x w := by
  funext i
  rw [val_main_v1_apply]
  unfold G
  refine Finset.sum_congr rfl fun k _ => ?_
  rw [val_main_v0_apply]
  have el : lidx_main_v1 i k = ix2 (i 0) k := funext fun a => Fin.ext (by
    match a with
    | ⟨0, _⟩ => rfl
    | ⟨1, _⟩ => rfl)
  have er : idx_main_v0 (ridx_main_v1 i k) = ix2 (⟨k.val, by have := k.isLt; omega⟩ : Fin 50000) (i 1) :=
    funext fun a => Fin.ext (by
      match a with
      | ⟨0, _⟩ => rfl
      | ⟨1, _⟩ => rfl)
  rw [el, er]
  rfl

end Cert.ReferenceIdeal.Product

end
-- ==== Proof.lean ====
/-
  The embedding product, blocked and zero-padded, against one matrix product.

  The kernel computes out = x · w[:49998] for x : [4096, 49998] and the table w : [50000, 128] by padding the
  contracted axis with zeros to 50176 = 49 · 1024 positions, cutting it into 49 chunks of 1024, and accumulating, per
  block of 1024 rows, the 49 partial products chunk by chunk in a scratch block (reset at the first chunk, copied to
  the result after the last). The reference slices the table and takes one product. Over the extended reals both are
      G x w (b, e) = Σ_{n < 49998} x(b, n) · w(n, e):
  the matrix unit's bf16 casts are the identity there, each partial product into a zero accumulator is a plain sum,
  the chunks' totals add up to the total over the padded axis because addition is commutative and associative (no
  finiteness of the entries is used), and the padded positions contribute 0 · 0 = 0.

  The modules: Spec (the function G and the running totals), Pieces (what one grid point leaves in the scratch and
  in the output block), Payload (one step at an entry), Operands (the padded arrays and their blocks), Accum (the
  running total after every point, by induction), Result (the written blocks tile the result), Reference (the
  reference is G). The frames of the two kernel programs and the two runs are the generated ones; the idealization
  rewrote nothing, so that conjunct is trivial.
-/
import proofs.«176189_j5454608466258_1_alg».proof.Defs
import proofs.«176189_j5454608466258_1_alg».proof.Proof.Gen.Kernel
import proofs.«176189_j5454608466258_1_alg».proof.Proof.Gen.Kernel.Skeleton
import proofs.«176189_j5454608466258_1_alg».proof.Proof.Gen.Kernel.Launch
import proofs.«176189_j5454608466258_1_alg».proof.Proof.Gen.Kernel.Points
import proofs.«176189_j5454608466258_1_alg».proof.Proof.Gen.Kernel.Frame
import proofs.«176189_j5454608466258_1_alg».proof.Proof.Gen.KernelIdeal
import proofs.«176189_j5454608466258_1_alg».proof.Proof.Gen.KernelIdeal.Skeleton
import proofs.«176189_j5454608466258_1_alg».proof.Proof.Gen.KernelIdeal.Launch
import proofs.«176189_j5454608466258_1_alg».proof.Proof.Gen.KernelIdeal.Points
import proofs.«176189_j5454608466258_1_alg».proof.Proof.Gen.KernelIdeal.Frame
import proofs.«176189_j5454608466258_1_alg».proof.Proof.Gen.ReferenceIdeal
import proofs.«176189_j5454608466258_1_alg».proof.Proof.Gen.Pre_finite_inputs
import proofs.«176189_j5454608466258_1_alg».proof.Proof.Gen.KernelIdeal.Value
import proofs.«176189_j5454608466258_1_alg».proof.Proof.Gen.ReferenceIdeal.Run
import proofs.«176189_j5454608466258_1_alg».proof.Proof.Gen.ReferenceIdeal.Read
import proofs.«176189_j5454608466258_1_alg».proof.Proof.Result
import proofs.«176189_j5454608466258_1_alg».proof.Proof.Reference
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the product `G` of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Product.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
